-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S100000x1 : Shape := ⟨2, ![100000, 1]⟩
abbrev S128x1 : Shape := ⟨2, ![128, 1]⟩
abbrev S128x10 : Shape := ⟨2, ![128, 10]⟩
abbrev S1x10 : Shape := ⟨2, ![1, 10]⟩

abbrev nBuf : Space → Nat
  | .hbm => 128
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S100000x128, .bf16⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .bf16⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x64, .bf16⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .bf16⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S128x64, .f32⟩
  | .hbm, ⟨96, _⟩ => ⟨S100000x1, .i32⟩
  | .hbm, ⟨97, _⟩ => ⟨S128x64, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S128, .f32⟩
  | .hbm, ⟨102, _⟩ => ⟨S100000x1, .i32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S128x1, .f32⟩
  | .hbm, ⟨108, _⟩ => ⟨S128x64, .f32⟩
  | .hbm, ⟨109, _⟩ => ⟨S128x64, .f32⟩
  | .hbm, ⟨110, _⟩ => ⟨S128x10, .f32⟩
  | .hbm, ⟨111, _⟩ => ⟨S1x10, .f32⟩
  | .hbm, ⟨112, _⟩ => ⟨S128x10, .f32⟩
  | .hbm, ⟨113, _⟩ => ⟨S128x10, .f32⟩
  | .hbm, ⟨114, _⟩ => ⟨S_, .f32⟩
  | .hbm, ⟨115, _⟩ => ⟨S128, .f32⟩
  | .hbm, ⟨116, _⟩ => ⟨S_, .f32⟩
  | .hbm, ⟨117, _⟩ => ⟨S128, .f32⟩
  | .hbm, ⟨118, _⟩ => ⟨S128, .f32⟩
  | .hbm, ⟨119, _⟩ => ⟨S128x1, .f32⟩
  | .hbm, ⟨120, _⟩ => ⟨S128x10, .f32⟩
  | .hbm, ⟨121, _⟩ => ⟨S128x10, .f32⟩
  | .hbm, ⟨122, _⟩ => ⟨S128x10, .f32⟩
  | .hbm, ⟨123, _⟩ => ⟨S_, .f32⟩
  | .hbm, ⟨124, _⟩ => ⟨S128, .f32⟩
  | .hbm, ⟨125, _⟩ => ⟨S128x1, .f32⟩
  | .hbm, ⟨126, _⟩ => ⟨S128x10, .f32⟩
  | .hbm, ⟨127, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .bf16⟩
  | .local _ .vmem, ⟨10, _⟩ => ⟨S5000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S128x1 : Shape := ⟨2, ![128, 1]⟩
abbrev S128x10 : Shape := ⟨2, ![128, 10]⟩
abbrev S1x10 : Shape := ⟨2, ![1, 10]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S64x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x64, .f32⟩
  | 76 => ⟨S100000, .i32⟩
  | 77 => ⟨S1700000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x128, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S128x64, .f32⟩
  | 11 => ⟨S100000x1, .i32⟩
  | 12 => ⟨S128x64, .f32⟩
  | 13 => ⟨S_, .f32⟩
  | 14 => ⟨S100000, .f32⟩
  | 15 => ⟨S_, .f32⟩
  | 16 => ⟨S128, .f32⟩
  | 17 => ⟨S100000x1, .i32⟩
  | 18 => ⟨S128, .f32⟩
  | 19 => ⟨S_, .f32⟩
  | 20 => ⟨S128, .f32⟩
  | 21 => ⟨S128, .f32⟩
  | 22 => ⟨S128x1, .f32⟩
  | 23 => ⟨S128x64, .f32⟩
  | 24 => ⟨S128x64, .f32⟩
  | 25 => ⟨S128x10, .f32⟩
  | 26 => ⟨S1x10, .f32⟩
  | 27 => ⟨S128x10, .f32⟩
  | 28 => ⟨S128x10, .f32⟩
  | 29 => ⟨S_, .f32⟩
  | 30 => ⟨S128, .f32⟩
  | 31 => ⟨S_, .f32⟩
  | 32 => ⟨S128, .f32⟩
  | 33 => ⟨S128, .f32⟩
  | 34 => ⟨S128x1, .f32⟩
  | 35 => ⟨S128x10, .f32⟩
  | 36 => ⟨S128x10, .f32⟩
  | 37 => ⟨S128x10, .f32⟩
  | 38 => ⟨S_, .f32⟩
  | 39 => ⟨S128, .f32⟩
  | 40 => ⟨S128x1, .f32⟩
  | 41 => ⟨S128x10, .f32⟩
  | 42 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_19 : Ref sig .tc := ⟨.hbm, 115, rfl⟩
abbrev main_v79 : Ref sig .tc := ⟨.hbm, 116, rfl⟩
abbrev main_v80 : Ref sig .tc := ⟨.hbm, 117, rfl⟩
abbrev main_c_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_21 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_cst_24 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_26 : Ref sig .tc := ⟨.hbm, 157, rfl⟩
abbrev main_v112 : Ref sig .tc := ⟨.hbm, 158, rfl⟩
abbrev main_cst_27 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_28 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KRun.lean ====
/-
  The kernel program's run, read for ALL its buffers.

  @main is nine segments: three lines of host operations, the first matrix-product kernel, one line, the second
  kernel, three lines. Each line takes every unscoped buffer from the contents at its start to the fold of its
  operations over them; each kernel takes its arrays from the contents at its entry to what its write-backs leave
  and keeps every other buffer. Chaining the nine segments from the launch memory, every weakly fair execution
  terminates, nothing faulting, with EVERY unscoped buffer at the last boundary's contents `W9` — the fold of the
  whole program over the launch memory. The result and the arguments are read off that by weakening.
-/
import proofs.«135896_j12695923327103_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every core holds at the launch: every unscoped buffer at its launch contents, the generator register, nothing owed. -/
abbrev T₀ (c : Dev nD) : sProp 𝕄 := iprop(StableHlo.held (c : Thread nD τ) (Pipeline.ucRefs τ sig) (W0 m ρ c) ∗ R c)

/-- What the run establishes of a final memory: every unscoped buffer of every core at the last boundary's contents. -/
abbrev Ends (c : Dev nD) (s : MemSt nD τ sig (Elt F)) : Prop :=
  ∀ b ∈ Pipeline.ucRefs τ sig, s.mem (((c : Thread nD τ)).1, b) = W9 m ρ c b

set_option backward.isDefEq.respectTransparency.types false in
/-- From any memory with zero counters, every weakly fair execution of @main terminates, nothing faulting, and every
    unscoped buffer ends at the fold of the whole program over the launch memory. -/
theorem run_all : θ_run defs (onTc (τ := τ) (main (F := F))) ⟨m, fun _ => 0, ρ⟩ (fun r => ∀ c : Dev nD, Ends m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' initial one, and no core asks for anything more
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T₀ m ρ) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      -- each segment starts from what the one before leaves; after the last, the buffers and the register on one
      -- side, the core owing nothing on the other
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- what the launch deals a core is its unscoped buffers at the launch memory, its register and an empty ledger
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := Ends m ρ)
    (hfin := fun c s' => by
      -- the buffers the last thread state holds are the final memory's
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- A buffer of the TensorCore that is not scoped ends at the whole program's fold. -/
theorem ends_at {r : PUnit × MemSt nD τ sig (Elt F)} (h : ∀ c : Dev nD, Ends m ρ c r.2) (c : Dev nD) (b : Ref sig .tc)
    (hb : ¬ (Proc.devRef .tc b : DevRef τ sig).isScoped) :
    r.2.mem ((c.tc : Thread nD τ).loc b) = W9 m ρ c (Proc.devRef .tc b) :=
  h c _ (mem_uc b hb)

end Cert.Gcn.KRun

end
-- ==== Proof.HostTac.lean ====
/-
  Reading a line of host operations.

  `after (l₁ ++ l₂) V = after l₂ (after l₁ V)`: the buffer contents after two lines run one after the other are the
  second line's contents from the first line's.
  `results_rw`: the contents after an operation, read at a buffer — at the operation's own result buffer its function's
  value of its operands' contents, at any other buffer what was there before — applied until no operation is left; it
  also reaches the contents named inside the operand list of a concatenation.
-/
import Idealize.ShloMosaic.Lib.StableHlo.Run

namespace Cert.Gcn

open Idealize.ShloMosaic

/-- The contents after two lines of host operations run one after the other. -/
theorem after_append {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => exact ih _

/-- Read each remaining operation's result: its function's value at its own buffer, the earlier contents at any
    other buffer (the two buffers compared by evaluation). -/
macro "results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))

end Cert.Gcn
-- ==== Proof.RefOps.lean ====
/-
  The reference program's @main as four lines of host operations run one after the other, and its run.

  The lines are cut where a value is used again later: the first ends with the edge coefficients (and holds the
  first matrix product), the second runs from the first layer's aggregation to the second matrix product, the
  third computes the edge ends and coefficients a second time, the fourth runs from the second layer's aggregation
  to the softmax. A function jax outlined (`where`, `relu`) stands as its operations at the place of its call.
  Every weakly fair execution of the program ends with each buffer at the fold of the four lines over the launch
  contents (`run`).
-/
import proofs.«135896_j12695923327103_2_alg».proof.Proof.Gen.ReferenceIdeal
import proofs.«135896_j12695923327103_2_alg».proof.Proof.HostTac
import Idealize.ShloMosaic.Lib.StableHlo.Run

noncomputable section

namespace Cert.Gcn.Ref

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The edge ends with the self loops, the first product, the degrees and the edge coefficients. -/
abbrev line1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v6 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v6 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v6 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

/-- The first layer's aggregation, bias and `max · 0`, and the second product. -/
abbrev line2 : List (HloOp τ sig (Elt F)) :=
  [ nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v6 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v6 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v4 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v7 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    binary main_v49 main_arg5 main_v50 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The edge ends, degrees and coefficients once more. -/
abbrev line3 : List (HloOp τ sig (Elt F)) :=
  [ nullary main_v51 (iotaInDim S100000 32 0),
    binary main_v1 main_v51 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v51 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_10 (constant S_ .f32 0x3F800000#32),
    unary main_cst_10 main_v54 (broadcastInDim S1700000 ![] bcast_S_S1700000 : (⟨S_, .f32⟩ : BufTy).Contents (Elt F) → (⟨S1700000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    unary main_v53 main_v56 (broadcastInDim S1700000x1 ![0] bcast_S1700000_S1700000x1_0 : (⟨S1700000, .i32⟩ : BufTy).Contents (Elt F) → (⟨S1700000x1, .i32⟩ : BufTy).Contents (Elt F)),
    ternary main_v55 main_v56 main_v54 main_v57 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v60 (broadcastInDim S100000 ![] bcast_S_S100000 : (⟨S_, .f32⟩ : BufTy).Contents (Elt F) → (⟨S100000, .f32⟩ : BufTy).Contents (Elt F)),
    binary main_v57 main_v60 main_v61 (maximumf : (⟨S100000, .f32⟩ : BufTy).Contents (Elt F) → (⟨S100000, .f32⟩ : BufTy).Contents (Elt F) → (⟨S100000, .f32⟩ : BufTy).Contents (Elt F)),
    unary main_v61 main_v62 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v62) (TRef.of (T := ⟨S100000, .f32⟩) main_call2_v1) (TRef.of (T := ⟨S100000, .f32⟩) main_v63) select,
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v52 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v52 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v52 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v63 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_17 (constantI S_ 32 0#32),
    unary main_c_17 main_v71 (broadcastInDim S1700000 ![] bcast_S_S1700000 : (⟨S_, .i32⟩ : BufTy).Contents (Elt F) → (⟨S1700000, .i32⟩ : BufTy).Contents (Elt F)),
    binary main_v53 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v73 (broadcastInDim S1700000 ![] bcast_S_S1700000 : (⟨S_, .i32⟩ : BufTy).Contents (Elt F) → (⟨S1700000, .i32⟩ : BufTy).Contents (Elt F)),
    binary main_v53 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v53 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v63 main_v76 main_v77 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v70 main_v77 main_v78 (mulf : (⟨S1700000, .f32⟩ : BufTy).Contents (Elt F) → (⟨S1700000, .f32⟩ : BufTy).Contents (Elt F) → (⟨S1700000, .f32⟩ : BufTy).Contents (Elt F)) ]

/-- The second layer's aggregation, bias and `max · 0`, the mean pool, the head and the softmax. -/
abbrev line4 : List (HloOp τ sig (Elt F)) :=
  [ nullary main_c_19 (constantI S_ 32 0#32),
    unary main_c_19 main_v79 (broadcastInDim S1700000 ![] bcast_S_S1700000 : (⟨S_, .i32⟩ : BufTy).Contents (Elt F) → (⟨S1700000, .i32⟩ : BufTy).Contents (Elt F)),
    binary main_v52 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v81 (broadcastInDim S1700000 ![] bcast_S_S1700000 : (⟨S_, .i32⟩ : BufTy).Contents (Elt F) → (⟨S1700000, .i32⟩ : BufTy).Contents (Elt F)),
    binary main_v52 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v52 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v50 main_v84 main_v85 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v78 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x64 ![0, 1] bcast_S1700000x1_S1700000x64_0_1 : (⟨S1700000x1, .f32⟩ : BufTy).Contents (Elt F) → (⟨S1700000x64, .f32⟩ : BufTy).Contents (Elt F)),
    binary main_v85 main_v87 main_v88 (mulf : (⟨S1700000x64, .f32⟩ : BufTy).Contents (Elt F) → (⟨S1700000x64, .f32⟩ : BufTy).Contents (Elt F) → (⟨S1700000x64, .f32⟩ : BufTy).Contents (Elt F)),
    nullary main_cst_21 (constant S_ .f32 0x00000000#32),
    unary main_cst_21 main_v89 (broadcastInDim S100000x64 ![] bcast_S_S100000x64 : (⟨S_, .f32⟩ : BufTy).Contents (Elt F) → (⟨S100000x64, .f32⟩ : BufTy).Contents (Elt F)),
    unary main_v53 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v94) (TRef.of (T := ⟨S100000x64, .f32⟩) main_call3_v0) (TRef.of (T := ⟨S100000x64, .f32⟩) main_v95) maximumf,
    nullary main_cst_22 (constant S_ .f32 0x00000000#32),
    unary main_cst_22 main_v96 (broadcastInDim S128x64 ![] bcast_S_S128x64 : (⟨S_, .f32⟩ : BufTy).Contents (Elt F) → (⟨S128x64, .f32⟩ : BufTy).Contents (Elt F)),
    unary main_arg2 main_v97 (broadcastInDim S100000x1 ![0] bcast_S100000_S100000x1_0 : (⟨S100000, .i32⟩ : BufTy).Contents (Elt F) → (⟨S100000x1, .i32⟩ : BufTy).Contents (Elt F)),
    ternary main_v96 main_v97 main_v95 main_v98 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_23 (constant S_ .f32 0x3F800000#32),
    unary main_cst_23 main_v99 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v100 (broadcastInDim S128 ![] bcast_S_S128 : (⟨S_, .f32⟩ : BufTy).Contents (Elt F) → (⟨S128, .f32⟩ : BufTy).Contents (Elt F)),
    unary main_arg2 main_v101 (broadcastInDim S100000x1 ![0] bcast_S100000_S100000x1_0 : (⟨S100000, .i32⟩ : BufTy).Contents (Elt F) → (⟨S100000x1, .i32⟩ : BufTy).Contents (Elt F)),
    ternary main_v100 main_v101 main_v99 main_v102 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_25 (constant S_ .f32 0x3F800000#32),
    unary main_cst_25 main_v103 (broadcastInDim S128 ![] bcast_S_S128 : (⟨S_, .f32⟩ : BufTy).Contents (Elt F) → (⟨S128, .f32⟩ : BufTy).Contents (Elt F)),
    binary main_v102 main_v103 main_v104 (maximumf : (⟨S128, .f32⟩ : BufTy).Contents (Elt F) → (⟨S128, .f32⟩ : BufTy).Contents (Elt F) → (⟨S128, .f32⟩ : BufTy).Contents (Elt F)),
    unary main_v104 main_v105 (broadcastInDim S128x1 ![0] bcast_S128_S128x1_0 : (⟨S128, .f32⟩ : BufTy).Contents (Elt F) → (⟨S128x1, .f32⟩ : BufTy).Contents (Elt F)),
    unary main_v105 main_v106 (broadcastInDim S128x64 ![0, 1] bcast_S128x1_S128x64_0_1 : (⟨S128x1, .f32⟩ : BufTy).Contents (Elt F) → (⟨S128x64, .f32⟩ : BufTy).Contents (Elt F)),
    binary main_v98 main_v106 main_v107 (Host.divf : (⟨S128x64, .f32⟩ : BufTy).Contents (Elt F) → (⟨S128x64, .f32⟩ : BufTy).Contents (Elt F) → (⟨S128x64, .f32⟩ : BufTy).Contents (Elt F)),
    binary main_v107 main_arg7 main_v108 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg8 main_v109 (broadcastInDim S1x10 ![1] bcast_S10_S1x10_1 : (⟨S10, .f32⟩ : BufTy).Contents (Elt F) → (⟨S1x10, .f32⟩ : BufTy).Contents (Elt F)),
    unary main_v109 main_v110 (broadcastInDim S128x10 ![0, 1] bcast_S1x10_S128x10_0_1 : (⟨S1x10, .f32⟩ : BufTy).Contents (Elt F) → (⟨S128x10, .f32⟩ : BufTy).Contents (Elt F)),
    binary main_v108 main_v110 main_v111 (addf : (⟨S128x10, .f32⟩ : BufTy).Contents (Elt F) → (⟨S128x10, .f32⟩ : BufTy).Contents (Elt F) → (⟨S128x10, .f32⟩ : BufTy).Contents (Elt F)),
    nullary main_cst_26 (constant S_ .f32 0xFF800000#32),
    binary main_v111 main_cst_26 main_v112 ((fun x v => Host.reduce FloatOps.maximumf x v reducesTo_S128x10_S128_d1 h_S_) : (⟨S128x10, .f32⟩ : BufTy).Contents (Elt F) → (⟨S_, .f32⟩ : BufTy).Contents (Elt F) → (⟨S128, .f32⟩ : BufTy).Contents (Elt F)),
    nullary main_cst_27 (constant S_ .f32 0xFF800000#32),
    unary main_cst_27 main_v113 (broadcastInDim S128 ![] bcast_S_S128 : (⟨S_, .f32⟩ : BufTy).Contents (Elt F) → (⟨S128, .f32⟩ : BufTy).Contents (Elt F)),
    binary main_v113 main_v112 main_v114 (maximumf : (⟨S128, .f32⟩ : BufTy).Contents (Elt F) → (⟨S128, .f32⟩ : BufTy).Contents (Elt F) → (⟨S128, .f32⟩ : BufTy).Contents (Elt F)),
    unary main_v114 main_v115 (broadcastInDim S128x1 ![0] bcast_S128_S128x1_0 : (⟨S128, .f32⟩ : BufTy).Contents (Elt F) → (⟨S128x1, .f32⟩ : BufTy).Contents (Elt F)),
    unary main_v115 main_v116 (broadcastInDim S128x10 ![0, 1] bcast_S128x1_S128x10_0_1 : (⟨S128x1, .f32⟩ : BufTy).Contents (Elt F) → (⟨S128x10, .f32⟩ : BufTy).Contents (Elt F)),
    binary main_v111 main_v116 main_v117 (subf : (⟨S128x10, .f32⟩ : BufTy).Contents (Elt F) → (⟨S128x10, .f32⟩ : BufTy).Contents (Elt F) → (⟨S128x10, .f32⟩ : BufTy).Contents (Elt F)),
    unary main_v117 main_v118 (Host.exp : (⟨S128x10, .f32⟩ : BufTy).Contents (Elt F) → (⟨S128x10, .f32⟩ : BufTy).Contents (Elt F)),
    nullary main_cst_28 (constant S_ .f32 0x00000000#32),
    binary main_v118 main_cst_28 main_v119 ((fun x v => Host.reduceAdd x v reducesTo_S128x10_S128_d1 h_S_) : (⟨S128x10, .f32⟩ : BufTy).Contents (Elt F) → (⟨S_, .f32⟩ : BufTy).Contents (Elt F) → (⟨S128, .f32⟩ : BufTy).Contents (Elt F)),
    unary main_v119 main_v120 (broadcastInDim S128x1 ![0] bcast_S128_S128x1_0 : (⟨S128, .f32⟩ : BufTy).Contents (Elt F) → (⟨S128x1, .f32⟩ : BufTy).Contents (Elt F)),
    unary main_v120 main_v121 (broadcastInDim S128x10 ![0, 1] bcast_S128x1_S128x10_0_1 : (⟨S128x1, .f32⟩ : BufTy).Contents (Elt F) → (⟨S128x10, .f32⟩ : BufTy).Contents (Elt F)),
    binary main_v118 main_v121 main_v122 (Host.divf : (⟨S128x10, .f32⟩ : BufTy).Contents (Elt F) → (⟨S128x10, .f32⟩ : BufTy).Contents (Elt F) → (⟨S128x10, .f32⟩ : BufTy).Contents (Elt F)) ]

/-- @main's operations, in order. -/
abbrev ops : List (HloOp τ sig (Elt F)) := line1 ++ (line2 ++ (line3 ++ line4))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem line1_sub : (line1 : List (HloOp τ sig (Elt F))).Forall fun op => op.bufs ⊆ tcRefs τ sig := by
  simp only [List.Forall, nullary_bufs_sub, unary_bufs_sub, binary_bufs_sub, ternary_bufs_sub, reshape_bufs_sub, and_self]
theorem line2_sub : (line2 : List (HloOp τ sig (Elt F))).Forall fun op => op.bufs ⊆ tcRefs τ sig := by
  simp only [List.Forall, nullary_bufs_sub, unary_bufs_sub, binary_bufs_sub, ternary_bufs_sub, reshape_bufs_sub, and_self]
theorem line3_sub : (line3 : List (HloOp τ sig (Elt F))).Forall fun op => op.bufs ⊆ tcRefs τ sig := by
  simp only [List.Forall, nullary_bufs_sub, unary_bufs_sub, binary_bufs_sub, ternary_bufs_sub, reshape_bufs_sub, and_self]
theorem line4_sub : (line4 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_append.mpr ⟨line1_sub, List.forall_append.mpr ⟨line2_sub, List.forall_append.mpr ⟨line3_sub, line4_sub⟩⟩⟩

theorem line1_fresh : (line1 : List (HloOp τ sig (Elt F))).Forall fun op => op.fresh = ∅ := by
  simp only [List.Forall]; repeat' constructor
theorem line2_fresh : (line2 : List (HloOp τ sig (Elt F))).Forall fun op => op.fresh = ∅ := by
  simp only [List.Forall]; repeat' constructor
theorem line3_fresh : (line3 : List (HloOp τ sig (Elt F))).Forall fun op => op.fresh = ∅ := by
  simp only [List.Forall]; repeat' constructor
theorem line4_fresh : (line4 : List (HloOp τ sig (Elt F))).Forall fun op => op.fresh = ∅ := by
  simp only [List.Forall]; repeat' constructor

theorem ops_fresh : (ops : List (HloOp τ sig (Elt F))).Forall fun op => op.fresh = ∅ :=
  List.forall_append.mpr ⟨line1_fresh, List.forall_append.mpr ⟨line2_fresh, List.forall_append.mpr ⟨line3_fresh, line4_fresh⟩⟩⟩

/-- The contents after the whole program, one line after the other. -/
theorem after_ops (V : Valuation τ sig (Elt F)) : after ops V = after line4 (after line3 (after line2 (after line1 V))) := by
  rw [ops, after_append, after_append, after_append]

/-- From any memory with zero counters every weakly fair execution of @main terminates, and every buffer ends at
    the fold of the program's operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.Gcn.Ref

end
-- ==== Proof.Spec.lean ====
/-
  The graph network both programs compute, as named functions of whole arrays.

  With `n = 100000` nodes, an edge list `e` of `1600000` directed edges and the `n` self loops appended, write
  `s`, `d` for the source and destination of every one of the `1700000` edges (`withLoops` of the two rows of `e`),
  `deg v` for the number of edges ending at node `v` (`degree`), `r v = deg v ^ (-1/2)` where `deg v > 0` and `0`
  elsewhere (`invSqrtDeg`: the guarded reciprocal square root of `max (deg v) 1`), and `coef j = r (s j) · r (d j)`
  (`edgeCoef`). One layer of the network sends a table `h` of node rows to the table whose row `v` is the sum over
  the edges `j` with `d j = v` of `coef j ·` row `s j` of `h` (`aggregate128` / `aggregate64`: a row gather, a
  product with the coefficient column spread over the features, a scatter that adds). Node indices are read the
  way numpy reads them: a negative one counts from the end (`wrapCol`), an index outside `0 … n-1` is clamped by
  the gather and dropped by the scatter — all of that is inside the library's `Host.gather` and
  `Host.scatterAdd`, which both programs call with the same dimension numbers, so none of it is opened here.

  After the second layer: bias and `max · 0` (`biasRelu64`), the mean of the node rows of each of the `128` graphs
  (a scatter that adds the rows and one that counts them, the count raised to at least `1`), the `64 × 10` linear
  head (`logits`), and a softmax along each row (`softmaxRows`).

  Everything is stated for any interpretation `F` of the float formats, over the shapes and dimension records of
  the printed kernel program.
-/
import proofs.«135896_j12695923327103_2_alg».proof.Proof.Gen.KernelIdeal

noncomputable section

namespace Cert.Gcn

open Cert.KernelIdeal Cert.KernelIdeal.Facts₀ Cert.KernelIdeal.Facts Idealize.ShloMosaic

variable {F : FTy → Type} [FloatOps F]

/-- Arrays of 32-bit integers, of `f32`, of `bf16` and of truth values of a given shape. -/
abbrev I32 (F : FTy → Type) (s : Shape) : Type := (⟨s, .i32⟩ : BufTy).Contents (Elt F)
abbrev F32 (F : FTy → Type) (s : Shape) : Type := (⟨s, .f32⟩ : BufTy).Contents (Elt F)
abbrev BF16 (F : FTy → Type) (s : Shape) : Type := (⟨s, .bf16⟩ : BufTy).Contents (Elt F)

/-! ## The edges -/

/-- Row 0 of the edge list (the sources), as a vector. -/
def edgeSrc (e : I32 F S2x1600000) : I32 F S1600000 :=
  shapeCast S1600000 (extractStridedSlice S1x1600000 ![0, 0] e slices_S2x1600000_S1x1600000_0_0) shapeCasts_S1x1600000_S1600000

/-- Row 1 of the edge list (the destinations), as a vector. -/
def edgeDst (e : I32 F S2x1600000) : I32 F S1600000 :=
  shapeCast S1600000 (extractStridedSlice S1x1600000 ![1, 0] e slices_S2x1600000_S1x1600000_1_0) shapeCasts_S1x1600000_S1600000

/-- One end of every edge followed by the self loops `0, 1, …, n - 1`. -/
def withLoops (a : I32 F S1600000) : I32 F S1700000 :=
  concatenate S1700000 0 [⟨S1600000, a⟩, ⟨S100000, iotaInDim S100000 32 0⟩] concatenates_S1600000_S100000_S1700000_d0

/-- Node indices as a column of gather start indices, a negative index counted from the end. -/
def wrapCol (s : I32 F S1700000) : I32 F S1700000x1 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Node indices as a column of scatter indices. -/
def idxCol (d : I32 F S1700000) : I32 F S1700000x1 :=
  broadcastInDim S1700000x1 ![0] bcast_S1700000_S1700000x1_0 d

/-- The number of edges ending at each node. -/
def degree (d : I32 F S1700000) : F32 F S100000 :=
  Host.scatterAdd scatter_S100000_S1700000x1_S1700000_n_0_0_1
    (broadcastInDim S100000 ![] bcast_S_S100000 (constant S_ .f32 0x00000000#32)) (idxCol d)
    (broadcastInDim S1700000 ![] bcast_S_S1700000 (constant S_ .f32 0x3F800000#32))

/-- `deg ^ (-1/2)` where the degree is positive, `0` elsewhere. -/
def invSqrtDeg (d : I32 F S1700000) : F32 F S100000 :=
  select (cmpf .ogt (degree d) (broadcastInDim S100000 ![] bcast_S_S100000 (constant S_ .f32 0x00000000#32)))
    (Host.rsqrt (maximumf (degree d) (broadcastInDim S100000 ![] bcast_S_S100000 (constant S_ .f32 0x3F800000#32))))
    (broadcastInDim S100000 ![] bcast_S_S100000 (constant S_ .f32 0x00000000#32))

/-- The coefficient of every edge: the product of the two ends' `deg ^ (-1/2)`. -/
def edgeCoef (s d : I32 F S1700000) : F32 F S1700000 :=
  mulf (Host.gather gather_S100000_S1700000x1_S1700000_n_0_n_n_0_1_1 (invSqrtDeg d) (wrapCol s))
    (Host.gather gather_S100000_S1700000x1_S1700000_n_0_n_n_0_1_1 (invSqrtDeg d) (wrapCol d))

/-- The coefficients as a column. -/
def coefCol (k : F32 F S1700000) : F32 F S1700000x1 :=
  broadcastInDim S1700000x1 ![0] bcast_S1700000_S1700000x1_0 k

/-! ## One layer's aggregation -/

/-- Row `d j` of the result collects `coef j ·` row `s j` of `h`, over 128 features. -/
def aggregate128 (h : F32 F S100000x128) (s d : I32 F S1700000) (k : F32 F S1700000x1) : F32 F S100000x128 :=
  Host.scatterAdd scatter_S100000x128_S1700000x1_S1700000x128_1_0_0_1
    (broadcastInDim S100000x128 ![] bcast_S_S100000x128 (constant S_ .f32 0x00000000#32)) (idxCol d)
    (mulf (Host.gather gather_S100000x128_S1700000x1_S1700000x128_1_0_n_n_0_1_1128 h (wrapCol s))
      (broadcastInDim S1700000x128 ![0, 1] bcast_S1700000x1_S1700000x128_0_1 k))

/-- The same with the table kept in `bf16` and widened after the gather. -/
def aggregate128w (h : BF16 F S100000x128) (s d : I32 F S1700000) (k : F32 F S1700000x1) : F32 F S100000x128 :=
  Host.scatterAdd scatter_S100000x128_S1700000x1_S1700000x128_1_0_0_1
    (broadcastInDim S100000x128 ![] bcast_S_S100000x128 (constant S_ .f32 0x00000000#32)) (idxCol d)
    (mulf (extf .f32 (Host.gather gather_S100000x128_S1700000x1_S1700000x128_1_0_n_n_0_1_1128 h (wrapCol s)) bitsLt_bf16_f32)
      (broadcastInDim S1700000x128 ![0, 1] bcast_S1700000x1_S1700000x128_0_1 k))

/-- The aggregation over 64 features. -/
def aggregate64 (h : F32 F S100000x64) (s d : I32 F S1700000) (k : F32 F S1700000x1) : F32 F S100000x64 :=
  Host.scatterAdd scatter_S100000x64_S1700000x1_S1700000x64_1_0_0_1
    (broadcastInDim S100000x64 ![] bcast_S_S100000x64 (constant S_ .f32 0x00000000#32)) (idxCol d)
    (mulf (Host.gather gather_S100000x64_S1700000x1_S1700000x64_1_0_n_n_0_1_164 h (wrapCol s))
      (broadcastInDim S1700000x64 ![0, 1] bcast_S1700000x1_S1700000x64_0_1 k))

/-- The same with the table kept in `bf16` and widened after the gather. -/
def aggregate64w (h : BF16 F S100000x64) (s d : I32 F S1700000) (k : F32 F S1700000x1) : F32 F S100000x64 :=
  Host.scatterAdd scatter_S100000x64_S1700000x1_S1700000x64_1_0_0_1
    (broadcastInDim S100000x64 ![] bcast_S_S100000x64 (constant S_ .f32 0x00000000#32)) (idxCol d)
    (mulf (extf .f32 (Host.gather gather_S100000x64_S1700000x1_S1700000x64_1_0_n_n_0_1_164 h (wrapCol s)) bitsLt_bf16_f32)
      (broadcastInDim S1700000x64 ![0, 1] bcast_S1700000x1_S1700000x64_0_1 k))

/-! ## After the second layer -/

/-- The bias added to every row, then `max · 0`. -/
def biasRelu64 (o : F32 F S100000x64) (b : F32 F S64) : F32 F S100000x64 :=
  maximumf (addf o (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The mean node row of each graph (`g` names every node's graph), through the linear head. -/
def logits (h : F32 F S100000x64) (g : I32 F S100000) (W : F32 F S64x10) (b : F32 F S10) : F32 F S128x10 :=
  addf
    (Host.dotGeneral dot_S128x64_S64x10_S128x10_1_0_0_1_n_n none
      (Host.divf
        (Host.scatterAdd scatter_S128x64_S100000x1_S100000x64_1_0_0_1
          (broadcastInDim S128x64 ![] bcast_S_S128x64 (constant S_ .f32 0x00000000#32))
          (broadcastInDim S100000x1 ![0] bcast_S100000_S100000x1_0 g) h)
        (broadcastInDim S128x64 ![0, 1] bcast_S128x1_S128x64_0_1
          (broadcastInDim S128x1 ![0] bcast_S128_S128x1_0
            (maximumf
              (Host.scatterAdd scatter_S128_S100000x1_S100000_n_0_0_1
                (broadcastInDim S128 ![] bcast_S_S128 (constant S_ .f32 0x00000000#32))
                (broadcastInDim S100000x1 ![0] bcast_S100000_S100000x1_0 g)
                (broadcastInDim S100000 ![] bcast_S_S100000 (constant S_ .f32 0x3F800000#32)))
              (broadcastInDim S128 ![] bcast_S_S128 (constant S_ .f32 0x3F800000#32))))))
      W)
    (broadcastInDim S128x10 ![0, 1] bcast_S1x10_S128x10_0_1 (broadcastInDim S1x10 ![1] bcast_S10_S1x10_1 b))

/-- Each row's maximum, spread back over the row. -/
def rowMax (z : F32 F S128x10) : F32 F S128x10 :=
  broadcastInDim S128x10 ![0, 1] bcast_S128x1_S128x10_0_1
    (broadcastInDim S128x1 ![0] bcast_S128_S128x1_0
      (maximumf (broadcastInDim S128 ![] bcast_S_S128 (constant S_ .f32 0xFF800000#32))
        (Host.reduce FloatOps.maximumf z (constant S_ .f32 0xFF800000#32) reducesTo_S128x10_S128_d1 h_S_)))

/-- `exp (z - max z)` along each row. -/
def expShifted (z : F32 F S128x10) : F32 F S128x10 := Host.exp (subf z (rowMax z))

/-- The softmax along each row. -/
def softmaxRows (z : F32 F S128x10) : F32 F S128x10 :=
  Host.divf (expShifted z)
    (broadcastInDim S128x10 ![0, 1] bcast_S128x1_S128x10_0_1
      (broadcastInDim S128x1 ![0] bcast_S128_S128x1_0
        (Host.reduceAdd (expShifted z) (constant S_ .f32 0x00000000#32) reducesTo_S128x10_S128_d1 h_S_)))

/-! ## The whole network -/

/-- The result from the second layer's projected table `p` on: aggregation, bias and `max · 0`, mean pool, head, softmax. -/
def classify (p : F32 F S100000x64) (e : I32 F S2x1600000) (g : I32 F S100000) (b2 : F32 F S64) (Wfc : F32 F S64x10)
    (bfc : F32 F S10) : F32 F S128x10 :=
  softmaxRows (logits (biasRelu64
    (aggregate64 p (withLoops (edgeSrc e)) (withLoops (edgeDst e))
      (coefCol (edgeCoef (withLoops (edgeSrc e)) (withLoops (edgeDst e))))) b2) g Wfc bfc)

end Cert.Gcn

end
-- ==== Proof.RefHost.lean ====
/-
  The reference program's four lines of host operations, each read as functions of the buffers it starts from —
  the same named functions the kernel program's stretches are read as (`Spec.lean`), so that the two programs'
  results are the same composition except where the kernel program has its two matrix-product kernels.

  The reference adds the first layer's bias with two host broadcasts and applies `max · 0` on the host
  (`hidden128`); the kernel program does both inside its second kernel.
-/
import proofs.«135896_j12695923327103_2_alg».proof.Proof.RefOps
import proofs.«135896_j12695923327103_2_alg».proof.Proof.Spec

noncomputable section

namespace Cert.Gcn.Ref

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The first layer's bias added to every row, then `max · 0`, as the reference spells it. -/
def hidden128 (o : F32 F S100000x128) (b : F32 F S128) : F32 F S100000x128 :=
  maximumf (addf o (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The reference's first product: the node features against the first weight matrix. -/
def prod1 (x : F32 F S100000x128) (W : F32 F S128x128) : F32 F S100000x128 :=
  Host.dotGeneral dot_S100000x128_S128x128_S100000x128_1_0_0_1_n_n none x W

/-- The reference's second product: the hidden rows against the second weight matrix. -/
def prod2 (h : F32 F S100000x128) (W : F32 F S128x64) : F32 F S100000x64 :=
  Host.dotGeneral dot_S100000x128_S128x64_S100000x64_1_0_0_1_n_n none h W

/-! ## Line 1 -/

theorem l1_prod (V : Valuation τ sig (Elt F)) :
    after line1 V (Proc.devRef .tc main_v4) = prod1 (V (Proc.devRef .tc main_arg0)) (V (Proc.devRef .tc main_arg3)) := by
  after_results_simp
  rfl

theorem l1_row0 (V : Valuation τ sig (Elt F)) :
    after line1 V (Proc.devRef .tc main_v1) = edgeSrc (V (Proc.devRef .tc main_arg1)) := by
  after_results_simp
  rfl

theorem l1_row1 (V : Valuation τ sig (Elt F)) :
    after line1 V (Proc.devRef .tc main_v3) = edgeDst (V (Proc.devRef .tc main_arg1)) := by
  after_results_simp
  rfl

theorem l1_src (V : Valuation τ sig (Elt F)) :
    after line1 V (Proc.devRef .tc main_v6) = withLoops (edgeSrc (V (Proc.devRef .tc main_arg1))) := by
  after_results_simp
  results_rw
  rfl

theorem l1_dst (V : Valuation τ sig (Elt F)) :
    after line1 V (Proc.devRef .tc main_v7) = withLoops (edgeDst (V (Proc.devRef .tc main_arg1))) := by
  after_results_simp
  results_rw
  rfl

theorem l1_coef (V : Valuation τ sig (Elt F)) :
    after line1 V (Proc.devRef .tc main_v32)
      = edgeCoef (withLoops (edgeSrc (V (Proc.devRef .tc main_arg1)))) (withLoops (edgeDst (V (Proc.devRef .tc main_arg1)))) := by
  after_results_simp
  results_rw
  simp only [TRef.toBuf, TRef.ofBuf, cast_eq, id]
  rfl

/-! ## Line 2 -/

theorem l2_prod (V : Valuation τ sig (Elt F)) :
    after line2 V (Proc.devRef .tc main_v50)
      = prod2 (hidden128 (aggregate128 (V (Proc.devRef .tc main_v4)) (V (Proc.devRef .tc main_v6)) (V (Proc.devRef .tc main_v7))
            (coefCol (V (Proc.devRef .tc main_v32)))) (V (Proc.devRef .tc main_arg4))) (V (Proc.devRef .tc main_arg5)) := by
  after_results_simp
  simp only [TRef.toBuf, TRef.ofBuf, cast_eq, id]
  rfl

/-! ## Line 3 -/

theorem l3_src (V : Valuation τ sig (Elt F)) :
    after line3 V (Proc.devRef .tc main_v52) = withLoops (V (Proc.devRef .tc main_v1)) := by
  after_results_simp
  results_rw
  rfl

theorem l3_dst (V : Valuation τ sig (Elt F)) :
    after line3 V (Proc.devRef .tc main_v53) = withLoops (V (Proc.devRef .tc main_v3)) := by
  after_results_simp
  results_rw
  rfl

theorem l3_coef (V : Valuation τ sig (Elt F)) :
    after line3 V (Proc.devRef .tc main_v78)
      = edgeCoef (withLoops (V (Proc.devRef .tc main_v1))) (withLoops (V (Proc.devRef .tc main_v3))) := by
  after_results_simp
  results_rw
  simp only [TRef.toBuf, TRef.ofBuf, cast_eq, id]
  rfl

/-! ## Line 4 -/

theorem l4_result (V : Valuation τ sig (Elt F)) :
    after line4 V (Proc.devRef .tc main_v122)
      = softmaxRows (logits (biasRelu64
          (aggregate64 (V (Proc.devRef .tc main_v50)) (V (Proc.devRef .tc main_v52)) (V (Proc.devRef .tc main_v53)) (coefCol (V (Proc.devRef .tc main_v78))))
          (V (Proc.devRef .tc main_arg6))) (V (Proc.devRef .tc main_arg2)) (V (Proc.devRef .tc main_arg7)) (V (Proc.devRef .tc main_arg8))) := by
  after_results_simp
  simp only [TRef.toBuf, TRef.ofBuf, cast_eq, id]
  rfl

/-! ## What each line leaves as it was -/

theorem l1_keep_arg0 (V : Valuation τ sig (Elt F)) : after line1 V (Proc.devRef .tc main_arg0) = V (Proc.devRef .tc main_arg0) := by after_results_simp
theorem l1_keep_arg1 (V : Valuation τ sig (Elt F)) : after line1 V (Proc.devRef .tc main_arg1) = V (Proc.devRef .tc main_arg1) := by after_results_simp
theorem l1_keep_arg2 (V : Valuation τ sig (Elt F)) : after line1 V (Proc.devRef .tc main_arg2) = V (Proc.devRef .tc main_arg2) := by after_results_simp
theorem l1_keep_arg3 (V : Valuation τ sig (Elt F)) : after line1 V (Proc.devRef .tc main_arg3) = V (Proc.devRef .tc main_arg3) := by after_results_simp
theorem l1_keep_arg4 (V : Valuation τ sig (Elt F)) : after line1 V (Proc.devRef .tc main_arg4) = V (Proc.devRef .tc main_arg4) := by after_results_simp
theorem l1_keep_arg5 (V : Valuation τ sig (Elt F)) : after line1 V (Proc.devRef .tc main_arg5) = V (Proc.devRef .tc main_arg5) := by after_results_simp
theorem l1_keep_arg6 (V : Valuation τ sig (Elt F)) : after line1 V (Proc.devRef .tc main_arg6) = V (Proc.devRef .tc main_arg6) := by after_results_simp
theorem l1_keep_arg7 (V : Valuation τ sig (Elt F)) : after line1 V (Proc.devRef .tc main_arg7) = V (Proc.devRef .tc main_arg7) := by after_results_simp
theorem l1_keep_arg8 (V : Valuation τ sig (Elt F)) : after line1 V (Proc.devRef .tc main_arg8) = V (Proc.devRef .tc main_arg8) := by after_results_simp
theorem l2_keep_arg0 (V : Valuation τ sig (Elt F)) : after line2 V (Proc.devRef .tc main_arg0) = V (Proc.devRef .tc main_arg0) := by after_results_simp
theorem l2_keep_arg1 (V : Valuation τ sig (Elt F)) : after line2 V (Proc.devRef .tc main_arg1) = V (Proc.devRef .tc main_arg1) := by after_results_simp
theorem l2_keep_arg2 (V : Valuation τ sig (Elt F)) : after line2 V (Proc.devRef .tc main_arg2) = V (Proc.devRef .tc main_arg2) := by after_results_simp
theorem l2_keep_arg3 (V : Valuation τ sig (Elt F)) : after line2 V (Proc.devRef .tc main_arg3) = V (Proc.devRef .tc main_arg3) := by after_results_simp
theorem l2_keep_arg4 (V : Valuation τ sig (Elt F)) : after line2 V (Proc.devRef .tc main_arg4) = V (Proc.devRef .tc main_arg4) := by after_results_simp
theorem l2_keep_arg5 (V : Valuation τ sig (Elt F)) : after line2 V (Proc.devRef .tc main_arg5) = V (Proc.devRef .tc main_arg5) := by after_results_simp
theorem l2_keep_arg6 (V : Valuation τ sig (Elt F)) : after line2 V (Proc.devRef .tc main_arg6) = V (Proc.devRef .tc main_arg6) := by after_results_simp
theorem l2_keep_arg7 (V : Valuation τ sig (Elt F)) : after line2 V (Proc.devRef .tc main_arg7) = V (Proc.devRef .tc main_arg7) := by after_results_simp
theorem l2_keep_arg8 (V : Valuation τ sig (Elt F)) : after line2 V (Proc.devRef .tc main_arg8) = V (Proc.devRef .tc main_arg8) := by after_results_simp
theorem l3_keep_arg0 (V : Valuation τ sig (Elt F)) : after line3 V (Proc.devRef .tc main_arg0) = V (Proc.devRef .tc main_arg0) := by after_results_simp
theorem l3_keep_arg1 (V : Valuation τ sig (Elt F)) : after line3 V (Proc.devRef .tc main_arg1) = V (Proc.devRef .tc main_arg1) := by after_results_simp
theorem l3_keep_arg2 (V : Valuation τ sig (Elt F)) : after line3 V (Proc.devRef .tc main_arg2) = V (Proc.devRef .tc main_arg2) := by after_results_simp
theorem l3_keep_arg3 (V : Valuation τ sig (Elt F)) : after line3 V (Proc.devRef .tc main_arg3) = V (Proc.devRef .tc main_arg3) := by after_results_simp
theorem l3_keep_arg4 (V : Valuation τ sig (Elt F)) : after line3 V (Proc.devRef .tc main_arg4) = V (Proc.devRef .tc main_arg4) := by after_results_simp
theorem l3_keep_arg5 (V : Valuation τ sig (Elt F)) : after line3 V (Proc.devRef .tc main_arg5) = V (Proc.devRef .tc main_arg5) := by after_results_simp
theorem l3_keep_arg6 (V : Valuation τ sig (Elt F)) : after line3 V (Proc.devRef .tc main_arg6) = V (Proc.devRef .tc main_arg6) := by after_results_simp
theorem l3_keep_arg7 (V : Valuation τ sig (Elt F)) : after line3 V (Proc.devRef .tc main_arg7) = V (Proc.devRef .tc main_arg7) := by after_results_simp
theorem l3_keep_arg8 (V : Valuation τ sig (Elt F)) : after line3 V (Proc.devRef .tc main_arg8) = V (Proc.devRef .tc main_arg8) := by after_results_simp
theorem l4_keep_arg0 (V : Valuation τ sig (Elt F)) : after line4 V (Proc.devRef .tc main_arg0) = V (Proc.devRef .tc main_arg0) := by after_results_simp
theorem l4_keep_arg1 (V : Valuation τ sig (Elt F)) : after line4 V (Proc.devRef .tc main_arg1) = V (Proc.devRef .tc main_arg1) := by after_results_simp
theorem l4_keep_arg2 (V : Valuation τ sig (Elt F)) : after line4 V (Proc.devRef .tc main_arg2) = V (Proc.devRef .tc main_arg2) := by after_results_simp
theorem l4_keep_arg3 (V : Valuation τ sig (Elt F)) : after line4 V (Proc.devRef .tc main_arg3) = V (Proc.devRef .tc main_arg3) := by after_results_simp
theorem l4_keep_arg4 (V : Valuation τ sig (Elt F)) : after line4 V (Proc.devRef .tc main_arg4) = V (Proc.devRef .tc main_arg4) := by after_results_simp
theorem l4_keep_arg5 (V : Valuation τ sig (Elt F)) : after line4 V (Proc.devRef .tc main_arg5) = V (Proc.devRef .tc main_arg5) := by after_results_simp
theorem l4_keep_arg6 (V : Valuation τ sig (Elt F)) : after line4 V (Proc.devRef .tc main_arg6) = V (Proc.devRef .tc main_arg6) := by after_results_simp
theorem l4_keep_arg7 (V : Valuation τ sig (Elt F)) : after line4 V (Proc.devRef .tc main_arg7) = V (Proc.devRef .tc main_arg7) := by after_results_simp
theorem l4_keep_arg8 (V : Valuation τ sig (Elt F)) : after line4 V (Proc.devRef .tc main_arg8) = V (Proc.devRef .tc main_arg8) := by after_results_simp
theorem l2_keep_v1 (V : Valuation τ sig (Elt F)) : after line2 V (Proc.devRef .tc main_v1) = V (Proc.devRef .tc main_v1) := by after_results_simp
theorem l2_keep_v3 (V : Valuation τ sig (Elt F)) : after line2 V (Proc.devRef .tc main_v3) = V (Proc.devRef .tc main_v3) := by after_results_simp
theorem l3_keep_v50 (V : Valuation τ sig (Elt F)) : after line3 V (Proc.devRef .tc main_v50) = V (Proc.devRef .tc main_v50) := by after_results_simp

/-- No line writes an argument. -/
theorem keep_arg0 (V : Valuation τ sig (Elt F)) : after ops V (Proc.devRef .tc main_arg0) = V (Proc.devRef .tc main_arg0) := by
  rw [after_ops, l4_keep_arg0, l3_keep_arg0, l2_keep_arg0, l1_keep_arg0]
theorem keep_arg1 (V : Valuation τ sig (Elt F)) : after ops V (Proc.devRef .tc main_arg1) = V (Proc.devRef .tc main_arg1) := by
  rw [after_ops, l4_keep_arg1, l3_keep_arg1, l2_keep_arg1, l1_keep_arg1]
theorem keep_arg2 (V : Valuation τ sig (Elt F)) : after ops V (Proc.devRef .tc main_arg2) = V (Proc.devRef .tc main_arg2) := by
  rw [after_ops, l4_keep_arg2, l3_keep_arg2, l2_keep_arg2, l1_keep_arg2]
theorem keep_arg3 (V : Valuation τ sig (Elt F)) : after ops V (Proc.devRef .tc main_arg3) = V (Proc.devRef .tc main_arg3) := by
  rw [after_ops, l4_keep_arg3, l3_keep_arg3, l2_keep_arg3, l1_keep_arg3]
theorem keep_arg4 (V : Valuation τ sig (Elt F)) : after ops V (Proc.devRef .tc main_arg4) = V (Proc.devRef .tc main_arg4) := by
  rw [after_ops, l4_keep_arg4, l3_keep_arg4, l2_keep_arg4, l1_keep_arg4]
theorem keep_arg5 (V : Valuation τ sig (Elt F)) : after ops V (Proc.devRef .tc main_arg5) = V (Proc.devRef .tc main_arg5) := by
  rw [after_ops, l4_keep_arg5, l3_keep_arg5, l2_keep_arg5, l1_keep_arg5]
theorem keep_arg6 (V : Valuation τ sig (Elt F)) : after ops V (Proc.devRef .tc main_arg6) = V (Proc.devRef .tc main_arg6) := by
  rw [after_ops, l4_keep_arg6, l3_keep_arg6, l2_keep_arg6, l1_keep_arg6]
theorem keep_arg7 (V : Valuation τ sig (Elt F)) : after ops V (Proc.devRef .tc main_arg7) = V (Proc.devRef .tc main_arg7) := by
  rw [after_ops, l4_keep_arg7, l3_keep_arg7, l2_keep_arg7, l1_keep_arg7]
theorem keep_arg8 (V : Valuation τ sig (Elt F)) : after ops V (Proc.devRef .tc main_arg8) = V (Proc.devRef .tc main_arg8) := by
  rw [after_ops, l4_keep_arg8, l3_keep_arg8, l2_keep_arg8, l1_keep_arg8]

/-! ## The whole program -/

/-- The reference's result as a function of its arguments. -/
theorem result (V : Valuation τ sig (Elt F)) :
    after ops V (Proc.devRef .tc main_v122)
      = classify
          (prod2 (hidden128 (aggregate128 (prod1 (V (Proc.devRef .tc main_arg0)) (V (Proc.devRef .tc main_arg3)))
              (withLoops (edgeSrc (V (Proc.devRef .tc main_arg1)))) (withLoops (edgeDst (V (Proc.devRef .tc main_arg1))))
              (coefCol (edgeCoef (withLoops (edgeSrc (V (Proc.devRef .tc main_arg1)))) (withLoops (edgeDst (V (Proc.devRef .tc main_arg1)))))))
            (V (Proc.devRef .tc main_arg4))) (V (Proc.devRef .tc main_arg5)))
          (V (Proc.devRef .tc main_arg1)) (V (Proc.devRef .tc main_arg2)) (V (Proc.devRef .tc main_arg6))
          (V (Proc.devRef .tc main_arg7)) (V (Proc.devRef .tc main_arg8)) := by
  rw [after_ops, l4_result, l3_src, l3_dst, l3_coef, l3_keep_v50, l3_keep_arg2, l3_keep_arg6, l3_keep_arg7, l3_keep_arg8,
    l2_prod, l2_keep_v1, l2_keep_v3, l2_keep_arg2, l2_keep_arg6, l2_keep_arg7, l2_keep_arg8,
    l1_prod, l1_src, l1_dst, l1_coef, l1_row0, l1_row1, l1_keep_arg2, l1_keep_arg4, l1_keep_arg5, l1_keep_arg6, l1_keep_arg7, l1_keep_arg8]
  rfl

end Cert.Gcn.Ref

end
-- ==== Proof.KHost.lean ====
/-
  The kernel program's three stretches of host operations, each read as functions of the buffers it starts from.

  Before the first matrix product: the two edge-end vectors with the self loops appended, and the edge coefficients as a
  column. Between the two products: the first layer's aggregation of the (bf16) projected table, and the bias vector as a
  one-row matrix. After the second product: the second layer's aggregation, bias and `max · 0`, the mean pool, the
  linear head and the softmax. Each stretch is read for ANY contents `V` it may start from; the arguments and the
  vectors a later stretch reads again are left as they were.
-/
import proofs.«135896_j12695923327103_2_alg».proof.Proof.Gen.KernelIdeal.Launch
import proofs.«135896_j12695923327103_2_alg».proof.Proof.Spec
import proofs.«135896_j12695923327103_2_alg».proof.Proof.HostTac

noncomputable section

namespace Cert.Gcn.KHost

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable {F : FTy → Type} [FloatOps F]

/-- The contents after the three lines before the first product. -/
abbrev pre (V : Valuation τ sig (Elt F)) : Valuation τ sig (Elt F) :=
  after hostOps0_2 (after hostOps0_1 (after hostOps0 V))

/-- The contents after the three lines after the second product. -/
abbrev post (V : Valuation τ sig (Elt F)) : Valuation τ sig (Elt F) :=
  after hostOps2_2 (after hostOps2_1 (after hostOps2 V))

/-! ## Before the first product -/

theorem pre_src (V : Valuation τ sig (Elt F)) :
    pre V (Proc.devRef .tc main_v5) = withLoops (edgeSrc (V (Proc.devRef .tc main_arg1))) := by
  after_results_simp
  results_rw
  rfl

theorem pre_dst (V : Valuation τ sig (Elt F)) :
    pre V (Proc.devRef .tc main_v6) = withLoops (edgeDst (V (Proc.devRef .tc main_arg1))) := by
  after_results_simp
  results_rw
  rfl

theorem pre_coef (V : Valuation τ sig (Elt F)) :
    pre V (Proc.devRef .tc main_v32)
      = coefCol (edgeCoef (withLoops (edgeSrc (V (Proc.devRef .tc main_arg1)))) (withLoops (edgeDst (V (Proc.devRef .tc main_arg1))))) := by
  after_results_simp
  results_rw
  simp only [TRef.toBuf, TRef.ofBuf, cast_eq, id]
  rfl

theorem pre_arg0 (V : Valuation τ sig (Elt F)) : pre V (Proc.devRef .tc main_arg0) = V (Proc.devRef .tc main_arg0) := by after_results_simp
theorem pre_arg2 (V : Valuation τ sig (Elt F)) : pre V (Proc.devRef .tc main_arg2) = V (Proc.devRef .tc main_arg2) := by after_results_simp
theorem pre_arg3 (V : Valuation τ sig (Elt F)) : pre V (Proc.devRef .tc main_arg3) = V (Proc.devRef .tc main_arg3) := by after_results_simp
theorem pre_arg4 (V : Valuation τ sig (Elt F)) : pre V (Proc.devRef .tc main_arg4) = V (Proc.devRef .tc main_arg4) := by after_results_simp
theorem pre_arg5 (V : Valuation τ sig (Elt F)) : pre V (Proc.devRef .tc main_arg5) = V (Proc.devRef .tc main_arg5) := by after_results_simp
theorem pre_arg6 (V : Valuation τ sig (Elt F)) : pre V (Proc.devRef .tc main_arg6) = V (Proc.devRef .tc main_arg6) := by after_results_simp
theorem pre_arg7 (V : Valuation τ sig (Elt F)) : pre V (Proc.devRef .tc main_arg7) = V (Proc.devRef .tc main_arg7) := by after_results_simp
theorem pre_arg8 (V : Valuation τ sig (Elt F)) : pre V (Proc.devRef .tc main_arg8) = V (Proc.devRef .tc main_arg8) := by after_results_simp

/-! ## Between the two products -/

theorem mid_agg (V : Valuation τ sig (Elt F)) :
    after hostOps1 V (Proc.devRef .tc main_v46)
      = aggregate128w (V (Proc.devRef .tc main_v33)) (V (Proc.devRef .tc main_v5)) (V (Proc.devRef .tc main_v6)) (V (Proc.devRef .tc main_v32)) := by
  after_results_simp
  rfl

theorem mid_bias (V : Valuation τ sig (Elt F)) :
    after hostOps1 V (Proc.devRef .tc main_v47) = shapeCast S1x128 (V (Proc.devRef .tc main_arg4)) Facts₀.shapeCasts_S128_S1x128 := by
  after_results_simp
  rfl

theorem mid_v5 (V : Valuation τ sig (Elt F)) : after hostOps1 V (Proc.devRef .tc main_v5) = V (Proc.devRef .tc main_v5) := by after_results_simp
theorem mid_v6 (V : Valuation τ sig (Elt F)) : after hostOps1 V (Proc.devRef .tc main_v6) = V (Proc.devRef .tc main_v6) := by after_results_simp
theorem mid_v32 (V : Valuation τ sig (Elt F)) : after hostOps1 V (Proc.devRef .tc main_v32) = V (Proc.devRef .tc main_v32) := by after_results_simp
theorem mid_arg2 (V : Valuation τ sig (Elt F)) : after hostOps1 V (Proc.devRef .tc main_arg2) = V (Proc.devRef .tc main_arg2) := by after_results_simp
theorem mid_arg5 (V : Valuation τ sig (Elt F)) : after hostOps1 V (Proc.devRef .tc main_arg5) = V (Proc.devRef .tc main_arg5) := by after_results_simp
theorem mid_arg6 (V : Valuation τ sig (Elt F)) : after hostOps1 V (Proc.devRef .tc main_arg6) = V (Proc.devRef .tc main_arg6) := by after_results_simp
theorem mid_arg7 (V : Valuation τ sig (Elt F)) : after hostOps1 V (Proc.devRef .tc main_arg7) = V (Proc.devRef .tc main_arg7) := by after_results_simp
theorem mid_arg8 (V : Valuation τ sig (Elt F)) : after hostOps1 V (Proc.devRef .tc main_arg8) = V (Proc.devRef .tc main_arg8) := by after_results_simp

/-! ## After the second product -/

theorem post_result (V : Valuation τ sig (Elt F)) :
    post V (Proc.devRef .tc main_v92)
      = softmaxRows (logits (biasRelu64
          (aggregate64w (V (Proc.devRef .tc main_v48)) (V (Proc.devRef .tc main_v5)) (V (Proc.devRef .tc main_v6)) (V (Proc.devRef .tc main_v32)))
          (V (Proc.devRef .tc main_arg6))) (V (Proc.devRef .tc main_arg2)) (V (Proc.devRef .tc main_arg7)) (V (Proc.devRef .tc main_arg8))) := by
  after_results_simp
  simp only [TRef.toBuf, TRef.ofBuf, cast_eq, id]
  rfl

end Cert.Gcn.KHost

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«135896_j12695923327103_2_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibPlainDot.lean ====
/-
  The plain matrix product's dimension numbers contract columns with rows.

  For the dimension numbers of an `R × K` by `K × N` product (`DotDims.plain`: the left operand's axis 1 against the
  right operand's axis 0, the other two axes kept in order) the contraction index is one coordinate `k < K`, and at
  result entry `(r, q)` the left operand is read at `(r, k)` and the right one at `(k, q)`.
-/
import proofs.«135896_j12695923327103_2_alg».proof.Proof.LibMatProd

noncomputable section

namespace Cert.Linear

open Idealize.ShloMosaic Idealize.ShloMosaic.ValueIdx

/-- `DotDims.plain R K N` contracts the left operand's columns with the right operand's rows. -/
theorem contracts_plain (R K N : Nat) : Contracts (DotDims.plain R K N) where
  rank := rfl
  size := rfl
  lhs0 := fun i q => by
    have hb : (0 : Fin 2) ∉ (DotDims.plain R K N).lhsBatch := show (0 : Fin 2) ∉ ([] : List (Fin 2)) from List.not_mem_nil
    have hn : (0 : Fin 2) ∈ (DotDims.plain R K N).lhsNonContracting :=
      show (0 : Fin 2) ∈ ([0] : List (Fin 2)) from List.mem_singleton.mpr rfl
    unfold DotDims.lhsIdx
    rw [dif_neg hb, dif_pos hn]
    rfl
  lhs1 := fun i q => (DotDims.plain R K N).lhsIdx_val_of_single (cl := 1) rfl i q
  rhs0 := fun i q => (DotDims.plain R K N).rhsIdx_val_of_single (cr := 0) rfl i q
  rhs1 := fun i q => by
    have hb : (1 : Fin 2) ∉ (DotDims.plain R K N).rhsBatch := show (1 : Fin 2) ∉ ([] : List (Fin 2)) from List.not_mem_nil
    have hn : (1 : Fin 2) ∈ (DotDims.plain R K N).rhsNonContracting :=
      show (1 : Fin 2) ∈ ([1] : List (Fin 2)) from List.mem_singleton.mpr rfl
    unfold DotDims.rhsIdx
    rw [dif_neg hb, dif_pos hn]
    rfl

end Cert.Linear

end
-- ==== Proof.Region0.lean ====
/-
  The first kernel: the node features against the first weight matrix, 5000 rows at each of 20 grid points.

  At grid point `t` the body multiplies rows `5000 t … 5000 t + 4999` of the features by the whole weight matrix and
  stores the result as block `t` of the output. A row of a product depends on that row of the left operand only, so
  block `t` of the output is block `t` of the whole product; the 20 blocks cover the output; hence after the kernel
  the output array IS the whole product `X · W` (`final`), for whatever contents `V` the kernel is entered with.
-/
import proofs.«135896_j12695923327103_2_alg».proof.Proof.Gen.KernelIdeal.Frame
import proofs.«135896_j12695923327103_2_alg».proof.Proof.LibRowBlock
import proofs.«135896_j12695923327103_2_alg».proof.Proof.LibPlainDot
import Idealize.ShloMosaic.Lib.Pipeline.Value

set_option maxRecDepth 16384

noncomputable section

namespace Cert.Gcn.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.Linear

variable (V : (c : Dev nD) → (b : Ref sig .tc) → Buf (Elt Ideal) ((c : Thread nD τ).loc b))

theorem hz : (![0, 0] : Fin 2 → Nat) = fun _ => 0 := funext fun a => by fin_cases a <;> rfl

/-- The whole product of the features and the first weight matrix, as the kernel finds them. -/
abbrev whole (c : Dev nD) : (Mat 100000 128).Idx → EReal :=
  matProd (R := 100000) (K := 128) (N := 128) (V c main_arg0) (V c main_arg3)

/-- The body's stored value is the product of its two loaded blocks: rounding to bf16 is the identity on the extended
    reals and the matrix unit accumulates into zero. -/
theorem pay_eq (x : Vec Ideal S5000x128 .f32) (w : Vec Ideal S128x128 .f32) :
    k0_pay1 x w = matProd (R := 5000) (K := 128) (N := 128) x w := by
  unfold k0_pay1
  exact matmul_zero_eq (φ₁ := .bf16) (φ₂ := .bf16) (d := dot_S5000x128_S128x128_S5000x128_1_0_0_1_n_n)
    (contracts_plain 5000 128 128) none x w

/-- The printed index maps over the grid: the feature block and the output block move down with the point, the weight
    block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e00, e01, e10, e11, e20, e21⟩ := idx_facts t
  funext j
  show matProd (R := 5000) (K := 128) (N := 128) (iblk0 V c 0 t) (iblk0 V c 1 t) j = whole V c (((cfg0.win 2).blk t).view.emb j)
  refine matProd_of_rows (R := 100000) (r := 5000) (K := 128) (N := 128) (n := 128) (V c main_arg0) (V c main_arg3)
    (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row `r` of the output is in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e20, e21⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e21]
    omega

/-- After the kernel its output array is the whole product. -/
theorem final (c : Dev nD) : (dat0 V c).arrAt 2 cfg0.N = whole V c :=
  (dat0 V c).arrAt_eq_of_cover 2 (whole V c) (fun t _ => flushed_eq V c t) (cover)

end Cert.Gcn.Region0

end
-- ==== Proof.Region1.lean ====
/-
  The second kernel: bias, `max · 0` and the second weight matrix, 5000 rows at each of 20 grid points.

  At grid point `t` the body loads rows `5000 t … 5000 t + 4999` of the first layer's aggregated table, adds the bias
  (a `1 × 128` row, the same at every point) to each of them, takes the maximum with `0`, multiplies by the whole
  `128 × 64` weight matrix and stores the result as block `t` of the output. Row by row that is the whole product
  `max (A + b) 0 · W`; the 20 blocks cover the output; so after the kernel the output array IS that product (`final`),
  for whatever contents `V` the kernel is entered with.
-/
import proofs.«135896_j12695923327103_2_alg».proof.Proof.Gen.KernelIdeal.Frame
import proofs.«135896_j12695923327103_2_alg».proof.Proof.LibRowBlock
import proofs.«135896_j12695923327103_2_alg».proof.Proof.LibPlainDot
import Idealize.ShloMosaic.Lib.Pipeline.Value

set_option maxRecDepth 16384

noncomputable section

namespace Cert.Gcn.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.Linear

variable (V : (c : Dev nD) → (b : Ref sig .tc) → Buf (Elt Ideal) ((c : Thread nD τ).loc b))

theorem hz : (![0, 0] : Fin 2 → Nat) = fun _ => 0 := funext fun a => by fin_cases a <;> rfl

/-- The float zero the body takes the maximum with. -/
abbrev zero32 : EReal := Ideal.ofBits .f32 0x00000000#32

/-- The hidden rows `max (A + b) 0` against the second weight matrix, as the kernel finds them. -/
abbrev whole (c : Dev nD) : (Mat 100000 64).Idx → EReal :=
  matProd (R := 100000) (K := 128) (N := 64) (rowBiasMax (V c main_v46) (V c main_v47) zero32) (V c main_arg5)

/-- The body's stored value: the bias row added to the block's rows, the maximum with zero, and the product with the
    weight block (rounding to bf16 is the identity on the extended reals; the matrix unit accumulates into zero). -/
theorem pay_eq (x : Vec Ideal S5000x128 .f32) (b : Vec Ideal S1x128 .f32) (w : Vec Ideal S128x64 .f32) :
    k1_pay1 x b w = matProd (R := 5000) (K := 128) (N := 64) (rowBiasMax x b zero32) w := by
  unfold k1_pay1
  refine (matmul_zero_eq (φ₁ := .bf16) (φ₂ := .bf16) (d := dot_S5000x128_S128x64_S5000x64_1_0_0_1_n_n)
    (contracts_plain 5000 128 64) none
    (maximumf (addf (shapeCast S5000x128 x shapeCasts_S5000x128_S5000x128)
        (broadcastTo S5000x128 (shapeCast S1x128 b shapeCasts_S1x128_S1x128) broadcasts_S1x128_S5000x128))
      (broadcast S5000x128 (Scalar.ofBits (F := Ideal) .f32 0x00000000#32))) w).trans ?_
  exact congrArg (fun y => matProd (R := 5000) (K := 128) (N := 64) y w)
    (rowBiasMax_of_vector_ops (R := 5000) (K := 128) x b zero32 shapeCasts_S5000x128_S5000x128 shapeCasts_S1x128_S1x128
      broadcasts_S1x128_S5000x128)

/-- The printed index maps over the grid: the table block and the output block move down with the point, the bias row
    and the weight block stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of the whole product. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x64) hz]
  rw [pay_eq]
  obtain ⟨e00, e01, e10, e11, e20, e21, e30, e31⟩ := idx_facts t
  funext j
  show matProd (R := 5000) (K := 128) (N := 64) (rowBiasMax (iblk1 V c 0 t) (iblk1 V c 1 t) zero32) (iblk1 V c 2 t) j
    = whole V c (((cfg1.win 3).blk t).view.emb j)
  refine matProd_of_rows (R := 100000) (r := 5000) (K := 128) (N := 64) (n := 64)
    (rowBiasMax (V c main_v46) (V c main_v47) zero32) (V c main_arg5)
    (rowBiasMax (iblk1 V c 0 t) (iblk1 V c 1 t) zero32) (iblk1 V c 2 t) j (((cfg1.win 3).blk t).view.emb j) (fun k => ?_) (fun k => ?_)
  · have hx : (iblk1 V c 0 t : (Mat 5000 128).Idx → EReal) (ix2 (j 0) k)
        = (V c main_v46 : (Mat 100000 128).Idx → EReal) (ix2 ((((cfg1.win 3).blk t).view.emb j) 0) k) := by
      show V c main_v46 (((cfg1.win 0).blk t).view.emb (ix2 (j 0) k)) = V c main_v46 (ix2 ((((cfg1.win 3).blk t).view.emb j) 0) k)
      refine congrArg (V c main_v46) (funext fun a => Fin.ext ?_)
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * k.val = k.val; omega
    have hb : (iblk1 V c 1 t : (Mat 1 128).Idx → EReal) (ix2 (0 : Fin 1) k) = (V c main_v47 : (Mat 1 128).Idx → EReal) (ix2 (0 : Fin 1) k) := by
      show V c main_v47 (((cfg1.win 1).blk t).view.emb (ix2 (0 : Fin 1) k)) = V c main_v47 (ix2 (0 : Fin 1) k)
      refine congrArg (V c main_v47) (funext fun a => Fin.ext ?_)
      match a with
      | ⟨0, _⟩ => show win1_1.index t (0 : Fin 2) * 1 + 1 * 0 = 0; omega
      | ⟨1, _⟩ => show win1_1.index t (1 : Fin 2) * 128 + 1 * k.val = k.val; omega
    exact congrArg₂ (fun a b : EReal => max (a + b) zero32) hx hb
  · show V c main_arg5 (((cfg1.win 2).blk t).view.emb (ix2 k (j 1))) = V c main_arg5 (ix2 k ((((cfg1.win 3).blk t).view.emb j) 1))
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega

/-- An index of the output is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- Row `r` of the output is in the block of point `r / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, e30, e31⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, hlt⟩ (1 : Fin 2) * 64 ≤ (i 1).val ∧ (i 1).val < win1_3.index ⟨(i 0).val / 5000, hlt⟩ (1 : Fin 2) * 64 + 64
    rw [e31]
    omega

/-- After the kernel its output array is the whole product. -/
theorem final (c : Dev nD) : (dat1 V c).arrAt 3 cfg1.N = whole V c :=
  (dat1 V c).arrAt_eq_of_cover 3 (whole V c) (fun t _ => flushed_eq V c t) (cover)

end Cert.Gcn.Region1

end
-- ==== Proof.KValue.lean ====
/-
  The kernel program's result as a function of its arguments, at the ideal values.

  Walk the program's boundaries back from the result. The last three lines read the second kernel's output and, still
  where the first three lines left them, the edge ends with the self loops and the coefficient column; the second
  kernel's output is the product `max (A + b₁) 0 · W₂` of what it is entered with (`Region1.final`), `A` the middle
  line's aggregation of the first kernel's output, which is `X · W₁` (`Region0.final`); no line and no kernel writes
  an argument. Widening a bf16 table after a gather is the identity on the extended reals, so the two aggregations
  are the plain ones.
-/
import proofs.«135896_j12695923327103_2_alg».proof.Proof.KHost
import proofs.«135896_j12695923327103_2_alg».proof.Proof.Region0
import proofs.«135896_j12695923327103_2_alg».proof.Proof.Region1

noncomputable section

namespace Cert.Gcn.KValue

open Cert.KernelIdeal Cert.KernelIdeal.Gen
open Idealize.ShloMosaic Idealize.ShloMosaic.TcCoe Idealize.SL.Sem Idealize.ShloMosaic.ValueIdx
open Cert.Linear

variable (m : (ℓ : Loc nD τ sig) → Buf (Elt Ideal) ℓ) (ρ : Dev nD → PrngReg) (c : Dev nD)

/-- The arguments on core `c`. -/
abbrev argX : F32 Ideal S100000x128 := m ((c.tc : Thread nD τ).loc main_arg0)
abbrev argE : I32 Ideal S2x1600000 := m ((c.tc : Thread nD τ).loc main_arg1)
abbrev argG : I32 Ideal S100000 := m ((c.tc : Thread nD τ).loc main_arg2)
abbrev argW1 : F32 Ideal S128x128 := m ((c.tc : Thread nD τ).loc main_arg3)
abbrev argB1 : F32 Ideal S128 := m ((c.tc : Thread nD τ).loc main_arg4)
abbrev argW2 : F32 Ideal S128x64 := m ((c.tc : Thread nD τ).loc main_arg5)
abbrev argB2 : F32 Ideal S64 := m ((c.tc : Thread nD τ).loc main_arg6)
abbrev argWfc : F32 Ideal S64x10 := m ((c.tc : Thread nD τ).loc main_arg7)
abbrev argBfc : F32 Ideal S10 := m ((c.tc : Thread nD τ).loc main_arg8)

/-- The edge ends with the self loops and the coefficient column, of the argument edge list. -/
abbrev src : I32 Ideal S1700000 := withLoops (edgeSrc (argE m c))
abbrev dst : I32 Ideal S1700000 := withLoops (edgeDst (argE m c))
abbrev coef : F32 Ideal S1700000x1 := coefCol (edgeCoef (src m c) (dst m c))

/-- Widening a bf16 table after the gather changes nothing on the extended reals. -/
theorem aggregate128w_eq (h : BF16 Ideal S100000x128) (s d : I32 Ideal S1700000) (k : F32 Ideal S1700000x1) :
    aggregate128w h s d k = aggregate128 h s d k := rfl

theorem aggregate64w_eq (h : BF16 Ideal S100000x64) (s d : I32 Ideal S1700000) (k : F32 Ideal S1700000x1) :
    aggregate64w h s d k = aggregate64 h s d k := rfl

/-! ## The contents at the first kernel's entry and exit -/

theorem entry0_arg0 : V3 m ρ c main_arg0 = argX m c := KHost.pre_arg0 (W0 m ρ c)
theorem entry0_arg3 : V3 m ρ c main_arg3 = argW1 m c := KHost.pre_arg3 (W0 m ρ c)

/-- The first kernel leaves `X · W₁` in its output. -/
theorem exit0_out : W4 m ρ c (Proc.devRef .tc main_v33) = matProd (R := 100000) (K := 128) (N := 128) (argX m c) (argW1 m c) := by
  refine (W4_arr m ρ c 2).trans ((Region0.final (V3 m ρ) c).trans ?_)
  show matProd (R := 100000) (K := 128) (N := 128) (V3 m ρ c main_arg0) (V3 m ρ c main_arg3) = _
  rw [entry0_arg0, entry0_arg3]

theorem exit0_src : W4 m ρ c (Proc.devRef .tc main_v5) = src m c :=
  (W4_of_ne m ρ c main_v5 (by decide)).trans (KHost.pre_src (W0 m ρ c))
theorem exit0_dst : W4 m ρ c (Proc.devRef .tc main_v6) = dst m c :=
  (W4_of_ne m ρ c main_v6 (by decide)).trans (KHost.pre_dst (W0 m ρ c))
theorem exit0_coef : W4 m ρ c (Proc.devRef .tc main_v32) = coef m c :=
  (W4_of_ne m ρ c main_v32 (by decide)).trans (KHost.pre_coef (W0 m ρ c))
theorem exit0_arg2 : W4 m ρ c (Proc.devRef .tc main_arg2) = argG m c :=
  (W4_of_ne m ρ c main_arg2 (by decide)).trans (KHost.pre_arg2 (W0 m ρ c))
theorem exit0_arg4 : W4 m ρ c (Proc.devRef .tc main_arg4) = argB1 m c :=
  (W4_of_ne m ρ c main_arg4 (by decide)).trans (KHost.pre_arg4 (W0 m ρ c))
theorem exit0_arg5 : W4 m ρ c (Proc.devRef .tc main_arg5) = argW2 m c :=
  (W4_of_ne m ρ c main_arg5 (by decide)).trans (KHost.pre_arg5 (W0 m ρ c))
theorem exit0_arg6 : W4 m ρ c (Proc.devRef .tc main_arg6) = argB2 m c :=
  (W4_of_ne m ρ c main_arg6 (by decide)).trans (KHost.pre_arg6 (W0 m ρ c))
theorem exit0_arg7 : W4 m ρ c (Proc.devRef .tc main_arg7) = argWfc m c :=
  (W4_of_ne m ρ c main_arg7 (by decide)).trans (KHost.pre_arg7 (W0 m ρ c))
theorem exit0_arg8 : W4 m ρ c (Proc.devRef .tc main_arg8) = argBfc m c :=
  (W4_of_ne m ρ c main_arg8 (by decide)).trans (KHost.pre_arg8 (W0 m ρ c))

/-! ## The contents at the second kernel's entry and exit -/

/-- The first layer's aggregated table. -/
abbrev layer1 : F32 Ideal S100000x128 :=
  aggregate128 (matProd (R := 100000) (K := 128) (N := 128) (argX m c) (argW1 m c)) (src m c) (dst m c) (coef m c)

theorem entry1_table : V5 m ρ c main_v46 = layer1 m c := by
  refine (KHost.mid_agg (W4 m ρ c)).trans ?_
  rw [exit0_out, exit0_src, exit0_dst, exit0_coef, aggregate128w_eq]

theorem entry1_bias : V5 m ρ c main_v47 = shapeCast S1x128 (argB1 m c) shapeCasts_S128_S1x128 := by
  refine (KHost.mid_bias (W4 m ρ c)).trans ?_
  rw [exit0_arg4]

theorem entry1_arg5 : V5 m ρ c main_arg5 = argW2 m c := (KHost.mid_arg5 (W4 m ρ c)).trans (exit0_arg5 m ρ c)

/-- The second layer's projected table: `max (layer1 + b₁) 0 · W₂`. -/
abbrev projected2 : F32 Ideal S100000x64 :=
  matProd (R := 100000) (K := 128) (N := 64)
    (rowBiasMax (layer1 m c) (shapeCast S1x128 (argB1 m c) shapeCasts_S128_S1x128) Region1.zero32) (argW2 m c)

/-- The second kernel leaves it in its output. -/
theorem exit1_out : W6 m ρ c (Proc.devRef .tc main_v48) = projected2 m c := by
  refine (W6_arr m ρ c 3).trans ((Region1.final (V5 m ρ) c).trans ?_)
  show matProd (R := 100000) (K := 128) (N := 64) (rowBiasMax (V5 m ρ c main_v46) (V5 m ρ c main_v47) Region1.zero32) (V5 m ρ c main_arg5) = _
  rw [entry1_table, entry1_bias, entry1_arg5]

theorem exit1_src : W6 m ρ c (Proc.devRef .tc main_v5) = src m c :=
  (W6_of_ne m ρ c main_v5 (by decide)).trans ((KHost.mid_v5 (W4 m ρ c)).trans (exit0_src m ρ c))
theorem exit1_dst : W6 m ρ c (Proc.devRef .tc main_v6) = dst m c :=
  (W6_of_ne m ρ c main_v6 (by decide)).trans ((KHost.mid_v6 (W4 m ρ c)).trans (exit0_dst m ρ c))
theorem exit1_coef : W6 m ρ c (Proc.devRef .tc main_v32) = coef m c :=
  (W6_of_ne m ρ c main_v32 (by decide)).trans ((KHost.mid_v32 (W4 m ρ c)).trans (exit0_coef m ρ c))
theorem exit1_arg2 : W6 m ρ c (Proc.devRef .tc main_arg2) = argG m c :=
  (W6_of_ne m ρ c main_arg2 (by decide)).trans ((KHost.mid_arg2 (W4 m ρ c)).trans (exit0_arg2 m ρ c))
theorem exit1_arg6 : W6 m ρ c (Proc.devRef .tc main_arg6) = argB2 m c :=
  (W6_of_ne m ρ c main_arg6 (by decide)).trans ((KHost.mid_arg6 (W4 m ρ c)).trans (exit0_arg6 m ρ c))
theorem exit1_arg7 : W6 m ρ c (Proc.devRef .tc main_arg7) = argWfc m c :=
  (W6_of_ne m ρ c main_arg7 (by decide)).trans ((KHost.mid_arg7 (W4 m ρ c)).trans (exit0_arg7 m ρ c))
theorem exit1_arg8 : W6 m ρ c (Proc.devRef .tc main_arg8) = argBfc m c :=
  (W6_of_ne m ρ c main_arg8 (by decide)).trans ((KHost.mid_arg8 (W4 m ρ c)).trans (exit0_arg8 m ρ c))

/-! ## The result -/

/-- The value both programs end at: the network from the second layer's projected table on. -/
abbrev value : F32 Ideal S128x10 :=
  classify (projected2 m c) (argE m c) (argG m c) (argB2 m c) (argWfc m c) (argBfc m c)

/-- The kernel program's result buffer ends at `value`. -/
theorem result : W9 m ρ c (Proc.devRef .tc main_v92) = value m c := by
  refine (KHost.post_result (W6 m ρ c)).trans ?_
  rw [exit1_out, exit1_src, exit1_dst, exit1_coef, exit1_arg2, exit1_arg6, exit1_arg7, exit1_arg8, aggregate64w_eq]
  rfl

end Cert.Gcn.KValue

end
-- ==== Proof.Bridge.lean ====
/-
  The reference's result is the value the kernel program ends at.

  Read as functions of the arguments the two results differ in three places only, and none of them is a difference on
  the extended reals: the reference's two `dot_general`s are the plain matrix products the two kernels compute
  block of rows by block of rows (`prod1_eq`, `prod2_eq`: both are the sum over `k` of `X (r, k) · W (k, q)`, a
  sum of the same terms, so no finiteness is asked); its two host broadcasts of the first bias followed by
  `max · 0` are the second kernel's in-body broadcast of the bias row followed by `max · 0` (`hidden_eq`); and its f32
  tables against the kernel program's bf16 ones (the identity). Everything else is the same named functions.
-/
import proofs.«135896_j12695923327103_2_alg».proof.Proof.RefHost
import proofs.«135896_j12695923327103_2_alg».proof.Proof.KValue

noncomputable section

namespace Cert.Gcn.Bridge

open Idealize.ShloMosaic Idealize.ShloMosaic.TcCoe Idealize.SL.Sem Idealize.ShloMosaic.StableHlo Idealize.ShloMosaic.ValueIdx
open Cert.Linear

/-- The reference's first `dot_general` is `X · W₁`. -/
theorem prod1_eq (x : F32 Ideal (Mat 100000 128)) (W : F32 Ideal (Mat 128 128)) :
    Ref.prod1 x W = matProd (R := 100000) (K := 128) (N := 128) x W := by
  unfold Ref.prod1
  exact dotGeneral_eq (d := Cert.ReferenceIdeal.dot_S100000x128_S128x128_S100000x128_1_0_0_1_n_n)
    (contracts_plain 100000 128 128) none .single x W

/-- The reference's second `dot_general` is `H · W₂`. -/
theorem prod2_eq (h : F32 Ideal (Mat 100000 128)) (W : F32 Ideal (Mat 128 64)) :
    Ref.prod2 h W = matProd (R := 100000) (K := 128) (N := 64) h W := by
  unfold Ref.prod2
  exact dotGeneral_eq (d := Cert.ReferenceIdeal.dot_S100000x128_S128x64_S100000x64_1_0_0_1_n_n)
    (contracts_plain 100000 128 64) none .single h W

/-- The reference's bias broadcasts and `max · 0` are the bias row added to every row and the maximum with zero. -/
theorem hidden_eq (o : F32 Ideal (Mat 100000 128)) (b : F32 Ideal (⟨1, ![128]⟩ : Shape)) :
    Ref.hidden128 o b
      = rowBiasMax o (shapeCast (Mat 1 128) b Cert.KernelIdeal.Gen.shapeCasts_S128_S1x128) (Ideal.ofBits .f32 0x00000000#32) := by
  unfold Ref.hidden128
  exact rowBiasMax_of_host_ops (R := 100000) (K := 128) o b 0x00000000#32
    Cert.ReferenceIdeal.Gen.bcast_S128_S1x128_1 Cert.ReferenceIdeal.Gen.bcast_S1x128_S100000x128_0_1
    Cert.ReferenceIdeal.Gen.bcast_S_S100000x128 Cert.KernelIdeal.Gen.shapeCasts_S128_S1x128

/-- From memories agreeing on the nine arguments, the reference's result buffer ends at the kernel program's value. -/
theorem ref_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    after Ref.ops (launchContents m' c) (Proc.devRef .tc Cert.ReferenceIdeal.main_v122) = KValue.value m c := by
  have e0 : launchContents m' c (Proc.devRef .tc Cert.ReferenceIdeal.main_arg0) = KValue.argX m c := h0
  have e1 : launchContents m' c (Proc.devRef .tc Cert.ReferenceIdeal.main_arg1) = KValue.argE m c := h1
  have e2 : launchContents m' c (Proc.devRef .tc Cert.ReferenceIdeal.main_arg2) = KValue.argG m c := h2
  have e3 : launchContents m' c (Proc.devRef .tc Cert.ReferenceIdeal.main_arg3) = KValue.argW1 m c := h3
  have e4 : launchContents m' c (Proc.devRef .tc Cert.ReferenceIdeal.main_arg4) = KValue.argB1 m c := h4
  have e5 : launchContents m' c (Proc.devRef .tc Cert.ReferenceIdeal.main_arg5) = KValue.argW2 m c := h5
  have e6 : launchContents m' c (Proc.devRef .tc Cert.ReferenceIdeal.main_arg6) = KValue.argB2 m c := h6
  have e7 : launchContents m' c (Proc.devRef .tc Cert.ReferenceIdeal.main_arg7) = KValue.argWfc m c := h7
  have e8 : launchContents m' c (Proc.devRef .tc Cert.ReferenceIdeal.main_arg8) = KValue.argBfc m c := h8
  rw [Ref.result, e0, e1, e2, e3, e4, e5, e6, e7, e8, prod1_eq, hidden_eq, prod2_eq]

end Cert.Gcn.Bridge

end
-- ==== Proof.lean ====
/-
  Two graph-convolution layers, a mean pool over the graphs, a linear head and a softmax: the Pallas program against
  its jnp reference, equal as extended reals.

  The kernel program keeps the irregular part — gathering node rows along 1.7 million edges, scaling them by the
  edge coefficients, scattering them back by addition — in host operations, and runs two kernels: `X · W₁`, and
  `max (A + b₁) 0 · W₂`, each over 20 blocks of 5000 rows and stored in bf16. The reference writes the same network
  with two whole `dot_general`s, adds the first bias with host broadcasts, and computes the edge ends, degrees and
  coefficients once per layer.

  At the ideal values both results are ONE function of the arguments (`KValue.value`): the host chains are the same
  named functions on both sides (`Spec.lean`, read off the two programs in `KHost.lean` and `RefHost.lean`); a
  product computed a block of rows at a time is the whole product, the blocks covering the output (`Region0.lean`,
  `Region1.lean`); rounding to bf16 and widening back are the identity; the bias spelt as host broadcasts or as an
  in-kernel broadcast of a row is the same row added to every row (`Bridge.lean`). The only arithmetic law used is
  that a finite sum does not depend on how its terms are grouped into blocks of rows — each entry's sum has
  literally the same terms — so the precondition (finite inputs) is never opened.

  The kernel program's run is read for all its buffers in `KRun.lean`; the reference's in `RefOps.lean`. The ideal
  pass rewrote nothing, so `preserves` is `True`.
-/
import proofs.«135896_j12695923327103_2_alg».proof.Defs
import proofs.«135896_j12695923327103_2_alg».proof.Proof.Gen.Kernel.Frame
import proofs.«135896_j12695923327103_2_alg».proof.Proof.Gen.KernelIdeal.Frame
import proofs.«135896_j12695923327103_2_alg».proof.Proof.Gen.Pre_finite_inputs
import proofs.«135896_j12695923327103_2_alg».proof.Proof.KRun
import proofs.«135896_j12695923327103_2_alg».proof.Proof.Bridge

noncomputable section

namespace Cert.Proof

open Idealize.ShloMosaic Idealize.ShloMosaic.TcCoe Idealize.SL.Sem Idealize.ShloMosaic.StableHlo
open Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference writes none of its arguments. -/
theorem frame_referenceIdeal : Cert.frame_ReferenceIdeal := fun m ρ _ =>
  (θ_run Cert.ReferenceIdeal.defs _ _).mono (fun r h c =>
    ⟨(h c Cert.ReferenceIdeal.main_arg0).trans (Ref.keep_arg0 _),
     (h c Cert.ReferenceIdeal.main_arg1).trans (Ref.keep_arg1 _),
     (h c Cert.ReferenceIdeal.main_arg2).trans (Ref.keep_arg2 _),
     (h c Cert.ReferenceIdeal.main_arg3).trans (Ref.keep_arg3 _),
     (h c Cert.ReferenceIdeal.main_arg4).trans (Ref.keep_arg4 _),
     (h c Cert.ReferenceIdeal.main_arg5).trans (Ref.keep_arg5 _),
     (h c Cert.ReferenceIdeal.main_arg6).trans (Ref.keep_arg6 _),
     (h c Cert.ReferenceIdeal.main_arg7).trans (Ref.keep_arg7 _),
     (h c Cert.ReferenceIdeal.main_arg8).trans (Ref.keep_arg8 _)⟩)
    (Ref.run (F := Ideal) m ρ)

theorem preserves : Cert.preserves_Kernel_KernelIdeal := trivial

/-- Both programs end with their result at `KValue.value` of the arguments. -/
theorem algebraic : Cert.algebraic_KernelIdeal_ReferenceIdeal := by
  intro m ρ m' ρ' _ hagree
  refine ⟨fun c => KValue.value m c, ?_, ?_⟩
  · refine (θ_run Cert.KernelIdeal.defs _ _).mono (fun r h c => ?_) (KRun.run_all (F := Ideal) m ρ)
    exact ⟨(KRun.ends_at m ρ h c Cert.KernelIdeal.main_v92 (by decide)).trans (KValue.result m ρ c),
      (KRun.ends_at m ρ h c Cert.KernelIdeal.main_arg0 (by decide)).trans (Cert.KernelIdeal.Gen.W9_main_arg0 m ρ c),
      (KRun.ends_at m ρ h c Cert.KernelIdeal.main_arg1 (by decide)).trans (Cert.KernelIdeal.Gen.W9_main_arg1 m ρ c),
      (KRun.ends_at m ρ h c Cert.KernelIdeal.main_arg2 (by decide)).trans (Cert.KernelIdeal.Gen.W9_main_arg2 m ρ c),
      (KRun.ends_at m ρ h c Cert.KernelIdeal.main_arg3 (by decide)).trans (Cert.KernelIdeal.Gen.W9_main_arg3 m ρ c),
      (KRun.ends_at m ρ h c Cert.KernelIdeal.main_arg4 (by decide)).trans (Cert.KernelIdeal.Gen.W9_main_arg4 m ρ c),
      (KRun.ends_at m ρ h c Cert.KernelIdeal.main_arg5 (by decide)).trans (Cert.KernelIdeal.Gen.W9_main_arg5 m ρ c),
      (KRun.ends_at m ρ h c Cert.KernelIdeal.main_arg6 (by decide)).trans (Cert.KernelIdeal.Gen.W9_main_arg6 m ρ c),
      (KRun.ends_at m ρ h c Cert.KernelIdeal.main_arg7 (by decide)).trans (Cert.KernelIdeal.Gen.W9_main_arg7 m ρ c),
      (KRun.ends_at m ρ h c Cert.KernelIdeal.main_arg8 (by decide)).trans (Cert.KernelIdeal.Gen.W9_main_arg8 m ρ c)⟩
  · refine (θ_run Cert.ReferenceIdeal.defs _ _).mono (fun r h c => ?_) (Ref.run (F := Ideal) m' ρ')
    obtain ⟨h0, h1, h2, h3, h4, h5, h6, h7, h8⟩ := hagree c
    exact ⟨(h c Cert.ReferenceIdeal.main_v122).trans (Bridge.ref_value m m' c h0 h1 h2 h3 h4 h5 h6 h7 h8),
      (h c Cert.ReferenceIdeal.main_arg0).trans (Ref.keep_arg0 _),
      (h c Cert.ReferenceIdeal.main_arg1).trans (Ref.keep_arg1 _),
      (h c Cert.ReferenceIdeal.main_arg2).trans (Ref.keep_arg2 _),
      (h c Cert.ReferenceIdeal.main_arg3).trans (Ref.keep_arg3 _),
      (h c Cert.ReferenceIdeal.main_arg4).trans (Ref.keep_arg4 _),
      (h c Cert.ReferenceIdeal.main_arg5).trans (Ref.keep_arg5 _),
      (h c Cert.ReferenceIdeal.main_arg6).trans (Ref.keep_arg6 _),
      (h c Cert.ReferenceIdeal.main_arg7).trans (Ref.keep_arg7 _),
      (h c Cert.ReferenceIdeal.main_arg8).trans (Ref.keep_arg8 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
